-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel

variable [Facts]

def fn {F : FTy → Type} [FloatOps F] (main_arg0 : FVec F S4194304x8 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  main_v3
-- ==== Kernel.lean ====
abbrev S4194304x8 : Shape := ⟨2, ![4194304, 8]⟩
abbrev S4194304x9 : Shape := ⟨2, ![4194304, 9]⟩
abbrev S8192x8 : Shape := ⟨2, ![8192, 8]⟩
abbrev S8192x9 : Shape := ⟨2, ![8192, 9]⟩
abbrev S8x8192 : Shape := ⟨2, ![8, 8192]⟩
abbrev S8x8x1024 : Shape := ⟨3, ![8, 8, 1024]⟩
abbrev S1x8x1024 : Shape := ⟨3, ![1, 8, 1024]⟩
abbrev S8x1024 : Shape := ⟨2, ![8, 1024]⟩
abbrev S9x8x1024 : Shape := ⟨3, ![9, 8, 1024]⟩
abbrev S9x8192 : Shape := ⟨2, ![9, 8192]⟩

abbrev nBuf : Space → Nat
  | .hbm => 2
  | .vmem => 4
  | .smem => 0
  | _ => 0

abbrev bufTy : (tb : Table) → Fin (tcTables nBuf tb) → BufTy
  | .hbm, ⟨0, _⟩ => ⟨S4194304x8, .f32⟩
  | .hbm, ⟨1, _⟩ => ⟨S4194304x9, .f32⟩
  | .local _ .vmem, ⟨0, _⟩ => ⟨S8192x8, .f32⟩
  | .local _ .vmem, ⟨1, _⟩ => ⟨S8192x8, .f32⟩
  | .local _ .vmem, ⟨2, _⟩ => ⟨S8192x9, .f32⟩
  | .local _ .vmem, ⟨3, _⟩ => ⟨S8192x9, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x8_S8192x8_0_0 : ∀ a, (![0, 0] : Fin 2 → Nat) a + S8192x8.size a ≤ S8192x8.size a
  h_S8192x8 : 0 < S8192x8.numel
  transposes_S8192x8_p1_0_S8x8192 : S8192x8.Transposes [1, 0] S8x8192
  shapeCasts_S8x8192_S8x8x1024 : S8x8192.ShapeCasts S8x8x1024
  slices_S8x8x1024_o0_0_0_S1x8x1024 : S8x8x1024.Slices ![0, 0, 0] S1x8x1024
  shapeCasts_S1x8x1024_S8x1024 : S1x8x1024.ShapeCasts S8x1024
  slices_S8x8x1024_o1_0_0_S1x8x1024 : S8x8x1024.Slices ![1, 0, 0] S1x8x1024
  slices_S8x8x1024_o2_0_0_S1x8x1024 : S8x8x1024.Slices ![2, 0, 0] S1x8x1024
  slices_S8x8x1024_o3_0_0_S1x8x1024 : S8x8x1024.Slices ![3, 0, 0] S1x8x1024
  slices_S8x8x1024_o4_0_0_S1x8x1024 : S8x8x1024.Slices ![4, 0, 0] S1x8x1024
  slices_S8x8x1024_o5_0_0_S1x8x1024 : S8x8x1024.Slices ![5, 0, 0] S1x8x1024
  slices_S8x8x1024_o6_0_0_S1x8x1024 : S8x8x1024.Slices ![6, 0, 0] S1x8x1024
  slices_S8x8x1024_o7_0_0_S1x8x1024 : S8x8x1024.Slices ![7, 0, 0] S1x8x1024
  shapeCasts_S8x1024_S1x8x1024 : S8x1024.ShapeCasts S1x8x1024
  concatenates_S1x8x1024_S1x8x1024_S1x8x1024_S1x8x1024_S1x8x1024_S1x8x1024_S1x8x1024_S1x8x1024_S1x8x1024_S9x8x1024_d0 : Shape.Concatenates [S1x8x1024, S1x8x1024, S1x8x1024, S1x8x1024, S1x8x1024, S1x8x1024, S1x8x1024, S1x8x1024, S1x8x1024] S9x8x1024 0
  shapeCasts_S9x8x1024_S9x8192 : S9x8x1024.ShapeCasts S9x8192
  transposes_S9x8192_p1_0_S8192x9 : S9x8192.Transposes [1, 0] S8192x9
  inb_S8192x9_S8192x9_0_0 : ∀ a, (![0, 0] : Fin 2 → Nat) a + S8192x9.size a ≤ S8192x9.size a
  h_S8192x9 : 0 < S8192x9.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S4194304x8.size a
  hwx0_0 : ∀ i : grid0.Coords, EltTy.bits .f32 = 32 ∨ (Rect.block (s := S4194304x8) S8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x9.size a ≤ S4194304x9.size a
  hwx0_1 : ∀ i : grid0.Coords, EltTy.bits .f32 = 32 ∨ (Rect.block (s := S4194304x9) S8192x9.size (cc0_transform_1 i) (hinb0_1 i)).WholeWords (EltTy.packing .f32)

variable [Facts₀]

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S4194304x1 : Shape := ⟨2, ![4194304, 1]⟩
abbrev S4194304 : Shape := ⟨1, ![4194304]⟩
abbrev S_ : Shape := ⟨0, ![]⟩
abbrev S4194304x3 : Shape := ⟨2, ![4194304, 3]⟩
abbrev S4194304x1x3 : Shape := ⟨3, ![4194304, 1, 3]⟩
abbrev S4194304x3x3 : Shape := ⟨3, ![4194304, 3, 3]⟩
abbrev S4194304x9 : Shape := ⟨2, ![4194304, 9]⟩

abbrev nBuf : Space → Nat
  | .hbm => 147
  | .vmem => 0
  | .smem => 0
  | _ => 0

abbrev hbmTy0_0 (i : Nat) : BufTy := match i % 128 with
  | 0 => ⟨S4194304x8, .f32⟩
  | 1 => ⟨S4194304x1, .f32⟩
  | 2 => ⟨S4194304, .f32⟩
  | 3 => ⟨S4194304x1, .f32⟩
  | 4 => ⟨S4194304, .f32⟩
  | 5 => ⟨S4194304x1, .f32⟩
  | 6 => ⟨S4194304, .f32⟩
  | 7 => ⟨S4194304x1, .f32⟩
  | 8 => ⟨S4194304, .f32⟩
  | 9 => ⟨S4194304x1, .f32⟩
  | 10 => ⟨S4194304, .f32⟩
  | 11 => ⟨S4194304x1, .f32⟩
  | 12 => ⟨S4194304, .f32⟩
  | 13 => ⟨S4194304x1, .f32⟩
  | 14 => ⟨S4194304, .f32⟩
  | 15 => ⟨S4194304x1, .f32⟩
  | 16 => ⟨S4194304, .f32⟩
  | 17 => ⟨S_, .f32⟩
  | 18 => ⟨S4194304, .f32⟩
  | 19 => ⟨S_, .f32⟩
  | 20 => ⟨S4194304, .f32⟩
  | 21 => ⟨S4194304, .f32⟩
  | 22 => ⟨S4194304, .f32⟩
  | 23 => ⟨S4194304, .f32⟩
  | 24 => ⟨S4194304, .f32⟩
  | 25 => ⟨S4194304, .f32⟩
  | 26 => ⟨S4194304, .f32⟩
  | 27 => ⟨S4194304, .f32⟩
  | 28 => ⟨S4194304x1, .f32⟩
  | 29 => ⟨S4194304x1, .f32⟩
  | 30 => ⟨S4194304x1, .f32⟩
  | 31 => ⟨S4194304x3, .f32⟩
  | 32 => ⟨S4194304x1, .f32⟩
  | 33 => ⟨S4194304x1, .f32⟩
  | 34 => ⟨S4194304x1, .f32⟩
  | 35 => ⟨S4194304x3, .f32⟩
  | 36 => ⟨S4194304x1, .f32⟩
  | 37 => ⟨S4194304x1, .f32⟩
  | 38 => ⟨S4194304x1, .f32⟩
  | 39 => ⟨S4194304x3, .f32⟩
  | 40 => ⟨S4194304x1x3, .f32⟩
  | 41 => ⟨S4194304x1x3, .f32⟩
  | 42 => ⟨S4194304x1x3, .f32⟩
  | 43 => ⟨S4194304x3x3, .f32⟩
  | 44 => ⟨S4194304, .f32⟩
  | 45 => ⟨S4194304x1, .f32⟩
  | 46 => ⟨S4194304x1, .f32⟩
  | 47 => ⟨S4194304x1, .f32⟩
  | 48 => ⟨S4194304x3, .f32⟩
  | 49 => ⟨S4194304x1, .f32⟩
  | 50 => ⟨S4194304x1, .f32⟩
  | 51 => ⟨S4194304x1, .f32⟩
  | 52 => ⟨S4194304x3, .f32⟩
  | 53 => ⟨S4194304x1, .f32⟩
  | 54 => ⟨S4194304x1, .f32⟩
  | 55 => ⟨S4194304x1, .f32⟩
  | 56 => ⟨S4194304x3, .f32⟩
  | 57 => ⟨S4194304x1x3, .f32⟩
  | 58 => ⟨S4194304x1x3, .f32⟩
  | 59 => ⟨S4194304x1x3, .f32⟩
  | 60 => ⟨S4194304x3x3, .f32⟩
  | 61 => ⟨S4194304, .f32⟩
  | 62 => ⟨S4194304x1, .f32⟩
  | 63 => ⟨S4194304x1, .f32⟩
  | 64 => ⟨S4194304x1, .f32⟩
  | 65 => ⟨S4194304x3, .f32⟩
  | 66 => ⟨S4194304x1, .f32⟩
  | 67 => ⟨S4194304x1, .f32⟩
  | 68 => ⟨S4194304x1, .f32⟩
  | 69 => ⟨S4194304x3, .f32⟩
  | 70 => ⟨S4194304x1, .f32⟩
  | 71 => ⟨S4194304x1, .f32⟩
  | 72 => ⟨S4194304x1, .f32⟩
  | 73 => ⟨S4194304x3, .f32⟩
  | 74 => ⟨S4194304x1x3, .f32⟩
  | 75 => ⟨S4194304x1x3, .f32⟩
  | 76 => ⟨S4194304x1x3, .f32⟩
  | 77 => ⟨S4194304x3x3, .f32⟩
  | 78 => ⟨S4194304x3x3, .f32⟩
  | 79 => ⟨S4194304x3x3, .f32⟩
  | 80 => ⟨S4194304, .f32⟩
  | 81 => ⟨S4194304, .f32⟩
  | 82 => ⟨S4194304, .f32⟩
  | 83 => ⟨S4194304x1, .f32⟩
  | 84 => ⟨S4194304x1, .f32⟩
  | 85 => ⟨S4194304x1, .f32⟩
  | 86 => ⟨S4194304x3, .f32⟩
  | 87 => ⟨S4194304x1, .f32⟩
  | 88 => ⟨S4194304x1, .f32⟩
  | 89 => ⟨S4194304x1, .f32⟩
  | 90 => ⟨S4194304x3, .f32⟩
  | 91 => ⟨S4194304x1, .f32⟩
  | 92 => ⟨S4194304x1, .f32⟩
  | 93 => ⟨S4194304x1, .f32⟩
  | 94 => ⟨S4194304x3, .f32⟩
  | 95 => ⟨S4194304x1x3, .f32⟩
  | 96 => ⟨S4194304x1x3, .f32⟩
  | 97 => ⟨S4194304x1x3, .f32⟩
  | 98 => ⟨S4194304x3x3, .f32⟩
  | 99 => ⟨S_, .f32⟩
  | 100 => ⟨S4194304, .f32⟩
  | 101 => ⟨S4194304, .f32⟩
  | 102 => ⟨S_, .f32⟩
  | 103 => ⟨S4194304, .f32⟩
  | 104 => ⟨S4194304, .f32⟩
  | 105 => ⟨S_, .f32⟩
  | 106 => ⟨S4194304, .f32⟩
  | 107 => ⟨S4194304, .f32⟩
  | 108 => ⟨S_, .f32⟩
  | 109 => ⟨S4194304, .f32⟩
  | 110 => ⟨S4194304, .f32⟩
  | 111 => ⟨S4194304x1, .f32⟩
  | 112 => ⟨S4194304x1, .f32⟩
  | 113 => ⟨S4194304x1, .f32⟩
  | 114 => ⟨S4194304x3, .f32⟩
  | 115 => ⟨S4194304x1, .f32⟩
  | 116 => ⟨S4194304x1, .f32⟩
  | 117 => ⟨S4194304x1, .f32⟩
  | 118 => ⟨S4194304x3, .f32⟩
  | 119 => ⟨S4194304x1, .f32⟩
  | 120 => ⟨S4194304x1, .f32⟩
  | 121 => ⟨S4194304x1, .f32⟩
  | 122 => ⟨S4194304x3, .f32⟩
  | 123 => ⟨S4194304x1x3, .f32⟩
  | 124 => ⟨S4194304x1x3, .f32⟩
  | 125 => ⟨S4194304x1x3, .f32⟩
  | 126 => ⟨S4194304x3x3, .f32⟩
  | 127 => ⟨S4194304x1, .f32⟩
  | _ => ⟨S4194304x8, .f32⟩

abbrev hbmTy0_1 (i : Nat) : BufTy := match i % 128 with
  | 0 => ⟨S4194304x1, .f32⟩
  | 1 => ⟨S4194304x1, .f32⟩
  | 2 => ⟨S4194304x3, .f32⟩
  | 3 => ⟨S4194304x1, .f32⟩
  | 4 => ⟨S4194304x1, .f32⟩
  | 5 => ⟨S4194304x1, .f32⟩
  | 6 => ⟨S4194304x3, .f32⟩
  | 7 => ⟨S4194304x1, .f32⟩
  | 8 => ⟨S4194304x1, .f32⟩
  | 9 => ⟨S4194304x1, .f32⟩
  | 10 => ⟨S4194304x3, .f32⟩
  | 11 => ⟨S4194304x1x3, .f32⟩
  | 12 => ⟨S4194304x1x3, .f32⟩
  | 13 => ⟨S4194304x1x3, .f32⟩
  | 14 => ⟨S4194304x3x3, .f32⟩
  | 15 => ⟨S4194304x3x3, .f32⟩
  | 16 => ⟨S4194304x3x3, .f32⟩
  | 17 => ⟨S4194304x3x3, .f32⟩
  | 18 => ⟨S4194304x9, .f32⟩
  | _ => ⟨S4194304x8, .f32⟩

abbrev hbmTy (i : Nat) : BufTy := match i / 128 with
  | 0 => hbmTy0_0 i
  | 1 => hbmTy0_1 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_cst_1 : Ref sig .tc := ⟨.hbm, 99, rfl⟩
abbrev main_v96 : Ref sig .tc := ⟨.hbm, 100, rfl⟩
abbrev main_v97 : Ref sig .tc := ⟨.hbm, 101, rfl⟩
abbrev main_cst_2 : Ref sig .tc := ⟨.hbm, 102, rfl⟩
abbrev main_v98 : Ref sig .tc := ⟨.hbm, 103, rfl⟩
abbrev main_v99 : Ref sig .tc := ⟨.hbm, 104, rfl⟩
abbrev main_cst_3 : Ref sig .tc := ⟨.hbm, 105, rfl⟩
abbrev main_v100 : Ref sig .tc := ⟨.hbm, 106, rfl⟩
abbrev main_v101 : Ref sig .tc := ⟨.hbm, 107, rfl⟩
abbrev main_cst_4 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩

abbrev nD : Nat := 1
abbrev τ : Topo := Topo.v7x

variable {F : FTy → Type} [FloatOps F]

class Facts₀ : Prop where
  slices_S4194304x8_S4194304x1_0_0 : S4194304x8.Slices ![0, 0] S4194304x1
  shapeCasts_S4194304x1_S4194304 : S4194304x1.ShapeCasts S4194304
  slices_S4194304x8_S4194304x1_0_1 : S4194304x8.Slices ![0, 1] S4194304x1
  slices_S4194304x8_S4194304x1_0_2 : S4194304x8.Slices ![0, 2] S4194304x1
  slices_S4194304x8_S4194304x1_0_3 : S4194304x8.Slices ![0, 3] S4194304x1
  slices_S4194304x8_S4194304x1_0_4 : S4194304x8.Slices ![0, 4] S4194304x1
  slices_S4194304x8_S4194304x1_0_5 : S4194304x8.Slices ![0, 5] S4194304x1
  slices_S4194304x8_S4194304x1_0_6 : S4194304x8.Slices ![0, 6] S4194304x1
  slices_S4194304x8_S4194304x1_0_7 : S4194304x8.Slices ![0, 7] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x3_d1 : Shape.Concatenates [S4194304x1, S4194304x1, S4194304x1] S4194304x3 1
  bcast_S4194304x3_S4194304x1x3_0_2 : S4194304x3.BroadcastsInDim S4194304x1x3 (![0, 2] : Fin 2 → Fin S4194304x1x3.rank)
  concatenates_S4194304x1x3_S4194304x1x3_S4194304x1x3_S4194304x3x3_d1 : Shape.Concatenates [S4194304x1x3, S4194304x1x3, S4194304x1x3] S4194304x3x3 1
  shapeCasts_S4194304x3x3_S4194304x9 : S4194304x3x3.ShapeCasts S4194304x9
  dot_S4194304x3x3_S4194304x3x3_S4194304x3x3_2_1_1_2_0_0_wf : DotDims.WF S4194304x3x3 S4194304x3x3 S4194304x3x3 [2] [1] [1] [2] [0] [0]

variable [Facts₀]

def dot_S4194304x3x3_S4194304x3x3_S4194304x3x3_2_1_1_2_0_0 : DotDims S4194304x3x3 S4194304x3x3 S4194304x3x3 where
  lhsContracting := [2]
  rhsContracting := [1]
  lhsNonContracting := [1]
  rhsNonContracting := [2]
  lhsBatch := [0]
  rhsBatch := [0]
  wf := dot_S4194304x3x3_S4194304x3x3_S4194304x3x3_2_1_1_2_0_0_wf

class Facts : Prop extends Facts₀ where

variable [Facts]
-- ==== Proof.Spec.lean ====
/-
  Nine entries of a 3×3 matrix built from eight numbers, written two ways.

  From one row (f₁, f₂, rx, ry, rz, tx, ty, tz) form
      k₁ = -1 / (f₁ + ε),  k₂ = -1 / (f₂ + ε),
      R = R_x · (R_y · R_z)   (the three plane rotations by rx, ry, rz),
      T = the skew matrix of (tx, ty, tz),
      F = diag(k₂, k₂, 1) · (T · (R · diag(k₁, k₁, 1))).
  `product` spells F as the chain of 3×3 products over the extended reals, every matrix filled entry by entry with the
  words of zero and one where it has them; `closed` spells each entry of F as the polynomial the products collapse to.
  `product_eq_closed`: the two agree at every entry, for ALL extended reals. No entry is assumed finite: each step is one
  of  0·a = 0,  1·a = a,  a + 0 = a,  (-a)·b = -(a·b),  a - b = a + (-b),  and the commutativity and associativity of the
  product, all of which hold on the extended reals; nothing is distributed over a sum and nothing is cancelled, so an
  infinite k₁ or k₂ (f + ε = 0) is carried through both sides alike.
-/
import Mathlib.Data.EReal.Operations
import Mathlib.Tactic
import Idealize.ShloMosaic.PureOps.Ideal
import Idealize.ShloMosaic.PureOps.IdealRules
import Idealize.ShloMosaic.PureOps.Ideal.Laws
import Idealize.ShloMosaic.Lib.ValueIdx

noncomputable section

open scoped BigOperators

namespace Cert.Rows

open Idealize.ShloMosaic Idealize.ShloMosaic.ValueIdx

/-- The small shift ε added to the two focal parameters: the f32 word both programs carry. -/
def shift : EReal := Ideal.ofBits .f32 0x322BCC77#32

/-- The numerator -1, as the f32 word both programs carry. -/
def minusOne : EReal := Ideal.ofBits .f32 0xBF800000#32

/-- The word of zero and the word of one, as the reference fills its matrices with them. -/
def zeroW : EReal := Ideal.ofBits .f32 0x00000000#32
def oneW : EReal := Ideal.ofBits .f32 0x3F800000#32

theorem zeroW_eq : zeroW = 0 := Ideal.ofBits_zero_f32
theorem oneW_eq : oneW = 1 := IdealRules.sign_bit.ideal_onePat .f32

/-- k = -1 / (f + ε). -/
def recip (f : EReal) : EReal := Ideal.div minusOne (f + shift)

/-! ## The closed form -/

/-- Entry `n` (row-major, n = 3·i + j) of F as a polynomial in k₁, k₂, the sines and cosines and the translations. -/
def closed (x : Fin 8 → EReal) : Fin 9 → EReal :=
  let k1 := recip (x 0); let k2 := recip (x 1)
  let cx := Ideal.cos (x 2); let sx := Ideal.sin (x 2)
  let cy := Ideal.cos (x 3); let sy := Ideal.sin (x 3)
  let cz := Ideal.cos (x 4); let sz := Ideal.sin (x 4)
  let tx := x 5; let ty := x 6; let tz := x 7
  let R00 := cy * cz
  let R01 := (0 - cy) * sz
  let R02 := 0 - sy
  let R10 := cx * sz - sx * sy * cz
  let R11 := cx * cz + sx * sy * sz
  let R12 := (0 - sx) * cy
  let R20 := sx * sz + cx * sy * cz
  let R21 := sx * cz - cx * sy * sz
  let R22 := cx * cy
  ![k2 * ((0 - tz) * (k1 * R10) + ty * (k1 * R20)),
    k2 * ((0 - tz) * (k1 * R11) + ty * (k1 * R21)),
    k2 * ((0 - tz) * R12 + ty * R22),
    k2 * (tz * (k1 * R00) - tx * (k1 * R20)),
    k2 * (tz * (k1 * R01) - tx * (k1 * R21)),
    k2 * (tz * R02 - tx * R22),
    (0 - ty) * (k1 * R00) + tx * (k1 * R10),
    (0 - ty) * (k1 * R01) + tx * (k1 * R11),
    (0 - ty) * R02 + tx * R12]

/-! ## The chain of products -/

/-- A 3×3 matrix from its nine entries, row by row. -/
def mat (a00 a01 a02 a10 a11 a12 a20 a21 a22 : EReal) : Fin 3 → Fin 3 → EReal :=
  ![![a00, a01, a02], ![a10, a11, a12], ![a20, a21, a22]]

/-- The product of two 3×3 matrices. -/
def mm (A B : Fin 3 → Fin 3 → EReal) : Fin 3 → Fin 3 → EReal := fun i j => ∑ k : Fin 3, A i k * B k j

/-- F as the chain of products, every matrix filled as the reference fills it. -/
def product (x : Fin 8 → EReal) : Fin 3 → Fin 3 → EReal :=
  let k1 := recip (x 0); let k2 := recip (x 1)
  let cx := Ideal.cos (x 2); let sx := Ideal.sin (x 2)
  let cy := Ideal.cos (x 3); let sy := Ideal.sin (x 3)
  let cz := Ideal.cos (x 4); let sz := Ideal.sin (x 4)
  let tx := x 5; let ty := x 6; let tz := x 7
  let o := zeroW; let l := oneW
  let Rx := mat l o o  o cx (-sx)  o sx cx
  let Ry := mat cy o (-sy)  o l o  sy o cy
  let Rz := mat cz (-sz) o  sz cz o  o o l
  let T := mat o (-tz) ty  tz o (-tx)  (-ty) tx o
  let K1 := mat k1 o o  o k1 o  o o l
  let K2 := mat k2 o o  o k2 o  o o l
  mm K2 (mm T (mm (mm Rx (mm Ry Rz)) K1))

/-- The row and the column of the flat position `n = 3·i + j`. -/
def rowOf (n : Fin 9) : Fin 3 := ⟨n.val / 3, by have := n.isLt; omega⟩
def colOf (n : Fin 9) : Fin 3 := ⟨n.val % 3, by omega⟩

theorem product_eq_closed (x : Fin 8 → EReal) (n : Fin 9) : product x (rowOf n) (colOf n) = closed x n := by
  fin_cases n <;>
  simp [product, closed, mm, mat, rowOf, colOf, Fin.sum_univ_three, zeroW_eq, oneW_eq] <;>
  simp only [sub_eq_add_neg, mul_comm, mul_left_comm, mul_assoc]

/-! ## The whole array -/

/-- Row `b` of the result is the nine entries of F built from row `b` of the argument. -/
def G (X : (⟨2, ![4194304, 8]⟩ : Shape).Idx → EReal) : (⟨2, ![4194304, 9]⟩ : Shape).Idx → EReal :=
  fun i => closed (fun p => X (ix2 (i 0) p)) (i 1)

end Cert.Rows

end
-- ==== Proof.KernelEntry.lean ====
/-
  One row of a block, entry by entry: what the kernel's body leaves at row r, column n of its output block is entry n of
  the closed form built from row r of its input block.

  The body transposes the 8192 × 8 block to 8 × 8192, splits the long axis into 8 × 1024 and takes each of the eight
  parameters as an 8 × 1024 tile; row r of the block sits at (r / 1024, r % 1024) of every tile (`param_at`). The nine
  result tiles are pointwise arithmetic over those eight, so at that position each is the same arithmetic over the eight
  numbers of row r; they are stacked, merged back to 9 × 8192 and transposed, which the generated value module has
  already read: column n of row r is tile n at (0, r / 1024, r % 1024) (`tile_at`). What is left, per column, is the
  closed form's entry spelled operation for operation, the word of zero read as 0.
-/
import proofs.«111784_j11897059410241_2_alg».proof.Proof.Gen.KernelIdeal.Value
import proofs.«111784_j11897059410241_2_alg».proof.Proof.Spec
import Idealize.ShloMosaic.Lib.ValueIdx
import Idealize.ShloMosaic.Lib.Pipeline.Value
import Idealize.ShloMosaic.Lib.ValueLayout

noncomputable section

namespace Cert.Rows.Kernel

open Cert.KernelIdeal Cert.KernelIdeal.Gen Idealize.ShloMosaic Idealize.ShloMosaic.ValueIdx

/-- The cosine and the sine of a tile, read at an index. -/
theorem cos_apply {s : Shape} {φ : FTy} (a : FVec Ideal s φ) (i : s.Idx) : cos a i = Ideal.cos (a i) := rfl
theorem sin_apply {s : Shape} {φ : FTy} (a : FVec Ideal s φ) (i : s.Idx) : sin a i = Ideal.sin (a i) := rfl

/-- A slice of one plane of the 8 × 8 × 1024 array starts inside it. -/
theorem off_lt {o : Nat} (h3 : S8x8x1024.Slices ![o, 0, 0] S1x8x1024) : o < 8 := by
  have h := h3.2 ⟨0, by decide⟩
  exact h

/-- PARAMETER `o`'s TILE, read where row `r` of the block lies in it: the block is transposed to 8 × 8192, its long axis
    split into 8 × 1024, plane `o` taken and its unit axis dropped; row `r` sits at (r / 1024, r % 1024) of the tile, and
    (r / 1024) · 1024 + r % 1024 = r, so the tile there is the block at row `r`, column `o`. -/
theorem param_at (P0 : Vec Ideal S8192x8 .f32) (o : Nat)
    (h1 : S8192x8.Transposes [1, 0] S8x8192) (h2 : S8x8192.ShapeCasts S8x8x1024)
    (h3 : S8x8x1024.Slices ![o, 0, 0] S1x8x1024) (h4 : S1x8x1024.ShapeCasts S8x1024) (r : Fin 8192) :
    shapeCast S8x1024 (extractStridedSlice S1x8x1024 ![o, 0, 0]
        (shapeCast S8x8x1024 (transpose S8x8192 [1, 0] P0 h1) h2) h3) h4
        (ix2 (⟨r.val / 1024, by omega⟩ : Fin 8) (⟨r.val % 1024, by omega⟩ : Fin 1024))
      = P0 (ix2 r (⟨o, off_lt h3⟩ : Fin 8)) := by
  have ho : o < 8 := off_lt h3
  have hr : r.val < 8192 := r.isLt
  refine (shapeCast_apply _ h4 _
    (ix3 (0 : Fin 1) (⟨r.val / 1024, by omega⟩ : Fin 8) (⟨r.val % 1024, by omega⟩ : Fin 1024)) (by
      rw [Shape.rowMajor_val_three, Shape.rowMajor_val_two]
      show (0 * 8 + r.val / 1024) * 1024 + r.val % 1024 = r.val / 1024 * 1024 + r.val % 1024
      omega)).trans ?_
  refine (extractStridedSlice_apply _ _ h3 _
    (ix3 (⟨o, ho⟩ : Fin 8) (⟨r.val / 1024, by omega⟩ : Fin 8) (⟨r.val % 1024, by omega⟩ : Fin 1024)) (fun a =>
      match a with
      | ⟨0, _⟩ => by show o = o + 0; omega
      | ⟨1, _⟩ => by show r.val / 1024 = 0 + r.val / 1024; omega
      | ⟨2, _⟩ => by show r.val % 1024 = 0 + r.val % 1024; omega)).trans ?_
  refine (shapeCast_apply _ h2 _ (ix2 (⟨o, ho⟩ : Fin 8) r) (by
      rw [Shape.rowMajor_val_three, Shape.rowMajor_val_two]
      show o * 8192 + r.val = (o * 8 + r.val / 1024) * 1024 + r.val % 1024
      omega)).trans ?_
  exact transpose_apply [1, 0] P0 h1 _ (ix2 r (⟨o, ho⟩ : Fin 8)) (fun b =>
    match b with
    | ⟨0, _⟩ => rfl
    | ⟨1, _⟩ => rfl)

/-- A COMPUTED TILE given its leading unit axis, read where row `r` of the output block reads it — at
    (0, r / 1024, r % 1024), whatever the column —, is the tile at (r / 1024, r % 1024). -/
theorem tile_at (T : Vec Ideal S8x1024 .f32) (h : S8x1024.ShapeCasts S1x8x1024) (r : Fin 8192) (n : Fin 9) :
    shapeCast S1x8x1024 T h (Value.ix1_0 (ix2 r n))
      = T (ix2 (⟨r.val / 1024, by omega⟩ : Fin 8) (⟨r.val % 1024, by omega⟩ : Fin 1024)) := by
  have hr : r.val < 8192 := r.isLt
  exact shapeCast_apply T h _ _ (by
    rw [Shape.rowMajor_val_three, Shape.rowMajor_val_two]
    show r.val / 1024 * 1024 + r.val % 1024 = (0 * 8 + r.val / 1024) * 1024 + r.val % 1024
    omega)

/-- ROW `r`, COLUMN `n` OF THE OUTPUT BLOCK is entry `n` of the closed form of row `r` of the input block. Column by column:
    the stacked tile `n` is read at (r / 1024, r % 1024) (`tile_at`), the pointwise operations are read at that index
    down to the eight parameter tiles, each of which is there the block's row `r` at its own column (`param_at`); the
    word 0x00000000 is the extended real 0, and the expression left is the closed form's entry as it is written. -/
theorem block_entry (P0 : Vec Ideal S8192x8 .f32) (r : Fin 8192) (n : Fin 9) :
    Cert.KernelIdeal.Value.E1 (F := Ideal) P0 (ix2 r n) = Cert.Rows.closed (fun p => P0 (ix2 r p)) n := by
  -- the stacked tile that holds column `n` is tile `n`
  show Value.Cat1_0 P0 n (Value.ix1_0 (ix2 r n)) = _
  match n with
  | ⟨0, _⟩ | ⟨1, _⟩ | ⟨2, _⟩ | ⟨3, _⟩ | ⟨4, _⟩ | ⟨5, _⟩ | ⟨6, _⟩ | ⟨7, _⟩ | ⟨8, _⟩ =>
    refine (tile_at _ _ r _).trans ?_
    simp only [mulf_apply, addf_apply, subf_apply, divf_apply, broadcast_apply, cos_apply, sin_apply,
      Ideal.ofBits_def, Ideal.ofBits_zero_f32, param_at P0 0, param_at P0 1, param_at P0 2, param_at P0 3,
      param_at P0 4, param_at P0 5, param_at P0 6, param_at P0 7]
    rfl

end Cert.Rows.Kernel

end
-- ==== Proof.KernelValue.lean ====
/-
  The kernel's result array, whole.

  The grid has 512 points; point t stages rows 8192·t … 8192·t + 8191 of the argument (all 8 columns) and writes back rows
  8192·t … 8192·t + 8191 of the result (all 9 columns). What the body leaves at row r, column n of its block is entry n of
  the closed form of row r of the staged block (the block lemma), and row r of the block staged at point t is row 8192·t + r of the
  argument: so what point t writes back is block t of ONE array, `Cert.Rows.G` of the argument — row b of the result is the
  nine entries built from row b of the argument. The 512 blocks cover the result (row b lies in block b / 8192), so the result
  array ends holding that array.
-/
import proofs.«111784_j11897059410241_2_alg».proof.Proof.Gen.KernelIdeal.Value
import proofs.«111784_j11897059410241_2_alg».proof.Proof.Spec
import proofs.«111784_j11897059410241_2_alg».proof.Proof.KernelEntry
import Idealize.ShloMosaic.Lib.ValueIdx
import Idealize.ShloMosaic.Lib.Pipeline.Value

noncomputable section

namespace Cert.Rows.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Both windows' block index at point t is (t, 0): decided over the 512 points. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What point t writes back is block t of `G` of the argument array. -/
theorem flushed_eq (c : Dev nD) (t : Fin cfg0.N) :
    (dats m 0 c).flushed 1 t = ((cfg0.win 1).blk t).view.read (Elt Ideal) (Cert.Rows.G (V m c main_arg0)) := by
  rw [Cert.KernelIdeal.Value.flushed1]
  obtain ⟨e0, e1, e2, e3⟩ := block_index t
  have hout : out0_1 (iblk m c 0 t) = Cert.KernelIdeal.Value.E1 (F := Ideal) (iblk m c 0 t) := by
    unfold out0_1
    simp only [View.ld_unit_zero (S := S8192x8) zero_offsets]
    exact funext fun y => Cert.KernelIdeal.Value.canon1_eq (F := Ideal) (iblk m c 0 t) y
  rw [hout]
  funext j
  obtain ⟨r, n, rfl⟩ : ∃ (r : Fin 8192) (n : Fin 9), j = ix2 r n := ⟨j 0, j 1, eq_ix2 j⟩
  show Cert.KernelIdeal.Value.E1 (F := Ideal) (iblk m c 0 t) (ix2 r n)
    = Cert.Rows.G (V m c main_arg0) (((cfg0.win 1).blk t).view.emb (ix2 r n))
  refine (block_entry (iblk m c 0 t) r n).trans ?_
  have hr : (r : Nat) < 8192 := r.isLt
  have hn : (n : Nat) < 9 := n.isLt
  have hrows : (fun p : Fin 8 => iblk m c 0 t (ix2 r p))
      = fun p : Fin 8 => V m c main_arg0 (ix2 ((((cfg0.win 1).blk t).view.emb (ix2 r n)) 0) p) :=
    funext fun p => by
      show V m c main_arg0 (((cfg0.win 0).blk t).view.emb (ix2 r p)) = _
      refine congrArg (V m c main_arg0) (funext fun a => Fin.ext ?_)
      have hp : (p : Nat) < 8 := p.isLt
      match a with
      | ⟨0, _⟩ => show win0_0.index t (0 : Fin 2) * 8192 + 1 * (r : Nat) = win0_1.index t (0 : Fin 2) * 8192 + 1 * (r : Nat); omega
      | ⟨1, _⟩ => show win0_0.index t (1 : Fin 2) * 8 + 1 * (p : Nat) = (p : Nat); omega
  have hcol : n = (((cfg0.win 1).blk t).view.emb (ix2 r n)) 1 :=
    Fin.ext (by show (n : Nat) = win0_1.index t (1 : Fin 2) * 9 + 1 * (n : Nat); omega)
  exact congrArg₂ Cert.Rows.closed hrows hcol

/-- An index of the result is in point t's block iff each coordinate is in the block's range on its axis. -/
theorem mem_block (t : Fin cfg0.N) (i : S4194304x9.Idx) :
    i ∈ ((cfg0.win 1).blk t).view.set ↔ ∀ a : Fin 2, win0_1.index t a * S8192x9.size a ≤ (i a).val ∧ (i a).val < win0_1.index t a * S8192x9.size a + S8192x9.size a := by
  show i ∈ ((View.whole main_v0).slice (win0_1.rect t)).set ↔ _
  rw [View.set_slice_whole, Rect.mem_set_unit]
  exact Iff.rfl

/-- Row b of the result lies in the block of point b / 8192. -/
theorem covered (i : S4194304x9.Idx) :
    ∃ t : Fin cfg0.N, (cfg0.win 1).flush t = true ∧ i ∈ ((cfg0.win 1).blk t).view.set := by
  have hi0 : (i 0).val < 4194304 := (i 0).isLt
  have hi1 : (i 1).val < 9 := (i 1).isLt
  have hN : cfg0.N = 512 := N_0
  let t : Fin cfg0.N := ⟨(i 0).val / 8192, by rw [hN]; omega⟩
  obtain ⟨e0, e1, e2, e3⟩ := block_index t
  have ht : (t : Nat) = (i 0).val / 8192 := rfl
  refine ⟨t, flush0_1 t, ?_⟩
  rw [mem_block]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 9 ≤ (i 1).val ∧ (i 1).val < win0_1.index t (1 : Fin 2) * 9 + 9; omega

/-- The result array after the run is `G` of the argument array. -/
theorem final (c : Dev nD) : (dats m 0 c).arrAt 1 cfg0.N = Cert.Rows.G (m ((c : Thread nD τ).loc main_arg0)) :=
  (dats m 0 c).arrAt_eq_of_cover 1 (Cert.Rows.G (V m c main_arg0)) (fun t _ => flushed_eq m c t) covered

/-- The kernel's run: it terminates with the result array at `G` of the argument, the argument unchanged. -/
theorem run : θ_run defs (onTc (τ := τ) (main (F := Ideal))) ⟨m, fun _ => 0, ρ⟩ fun r => ∀ c : Dev nD,
      r.2.mem ((c : Thread nD τ).loc main_v0) = Cert.Rows.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.Rows.Kernel

end
-- ==== Proof.RefScalars.lean ====
/-
  The reference's vectors at one row. Column p of the argument, cut out and flattened, read at row b is X(b, p); the
  cosines, sines and negations are taken entry by entry; the two reciprocals are -1 / (f + ε) entry by entry; the two
  constant vectors hold the words of zero and of one at every row.
-/
import proofs.«111784_j11897059410241_2_alg».proof.Proof.Gen.ReferenceIdeal.Read
import proofs.«111784_j11897059410241_2_alg».proof.Proof.Spec
import Idealize.ShloMosaic.Lib.ValueIdx

noncomputable section

namespace Cert.Rows.Reference

open Cert.ReferenceIdeal Cert.ReferenceIdeal.Gen Cert.ReferenceIdeal.Read Idealize.ShloMosaic Idealize.ShloMosaic.ValueIdx

variable (X : (⟨S4194304x8, .f32⟩ : BufTy).Contents (Elt Ideal)) (b : Fin 4194304)

/-! ## The eight columns -/

theorem read_f1 : val_main_v1 (F := Ideal) X (ix1 b) = X (ix2 b 0) := by
  rw [val_main_v1_apply, val_main_v0_apply]
  exact congrArg X (funext fun a => Fin.ext (by
    match a with
    | ⟨0, _⟩ => show (b : Nat) / 1 = (b : Nat); omega
    | ⟨1, _⟩ => rfl))

theorem read_f2 : val_main_v3 (F := Ideal) X (ix1 b) = X (ix2 b 1) := by
  rw [val_main_v3_apply, val_main_v2_apply]
  exact congrArg X (funext fun a => Fin.ext (by
    match a with
    | ⟨0, _⟩ => show (b : Nat) / 1 = (b : Nat); omega
    | ⟨1, _⟩ => rfl))

theorem read_rx : val_main_v5 (F := Ideal) X (ix1 b) = X (ix2 b 2) := by
  rw [val_main_v5_apply, val_main_v4_apply]
  exact congrArg X (funext fun a => Fin.ext (by
    match a with
    | ⟨0, _⟩ => show (b : Nat) / 1 = (b : Nat); omega
    | ⟨1, _⟩ => rfl))

theorem read_ry : val_main_v7 (F := Ideal) X (ix1 b) = X (ix2 b 3) := by
  rw [val_main_v7_apply, val_main_v6_apply]
  exact congrArg X (funext fun a => Fin.ext (by
    match a with
    | ⟨0, _⟩ => show (b : Nat) / 1 = (b : Nat); omega
    | ⟨1, _⟩ => rfl))

theorem read_rz : val_main_v9 (F := Ideal) X (ix1 b) = X (ix2 b 4) := by
  rw [val_main_v9_apply, val_main_v8_apply]
  exact congrArg X (funext fun a => Fin.ext (by
    match a with
    | ⟨0, _⟩ => show (b : Nat) / 1 = (b : Nat); omega
    | ⟨1, _⟩ => rfl))

theorem read_tx : val_main_v11 (F := Ideal) X (ix1 b) = X (ix2 b 5) := by
  rw [val_main_v11_apply, val_main_v10_apply]
  exact congrArg X (funext fun a => Fin.ext (by
    match a with
    | ⟨0, _⟩ => show (b : Nat) / 1 = (b : Nat); omega
    | ⟨1, _⟩ => rfl))

theorem read_ty : val_main_v13 (F := Ideal) X (ix1 b) = X (ix2 b 6) := by
  rw [val_main_v13_apply, val_main_v12_apply]
  exact congrArg X (funext fun a => Fin.ext (by
    match a with
    | ⟨0, _⟩ => show (b : Nat) / 1 = (b : Nat); omega
    | ⟨1, _⟩ => rfl))

theorem read_tz : val_main_v15 (F := Ideal) X (ix1 b) = X (ix2 b 7) := by
  rw [val_main_v15_apply, val_main_v14_apply]
  exact congrArg X (funext fun a => Fin.ext (by
    match a with
    | ⟨0, _⟩ => show (b : Nat) / 1 = (b : Nat); omega
    | ⟨1, _⟩ => rfl))

/-! ## The two constant vectors -/

theorem read_zero : val_main_v16 (F := Ideal) (ix1 b) = Cert.Rows.zeroW := by
  rw [val_main_v16_apply]; rfl

theorem read_one : val_main_v17 (F := Ideal) (ix1 b) = Cert.Rows.oneW := by
  rw [val_main_v17_apply]; rfl

/-! ## Cosines and sines -/

theorem read_cx : val_main_v18 (F := Ideal) X (ix1 b) = Ideal.cos (X (ix2 b 2)) := by
  rw [val_main_v18_apply, read_rx]; rfl

theorem read_sx : val_main_v19 (F := Ideal) X (ix1 b) = Ideal.sin (X (ix2 b 2)) := by
  rw [val_main_v19_apply, read_rx]; rfl

theorem read_cy : val_main_v20 (F := Ideal) X (ix1 b) = Ideal.cos (X (ix2 b 3)) := by
  rw [val_main_v20_apply, read_ry]; rfl

theorem read_sy : val_main_v21 (F := Ideal) X (ix1 b) = Ideal.sin (X (ix2 b 3)) := by
  rw [val_main_v21_apply, read_ry]; rfl

theorem read_cz : val_main_v22 (F := Ideal) X (ix1 b) = Ideal.cos (X (ix2 b 4)) := by
  rw [val_main_v22_apply, read_rz]; rfl

theorem read_sz : val_main_v23 (F := Ideal) X (ix1 b) = Ideal.sin (X (ix2 b 4)) := by
  rw [val_main_v23_apply, read_rz]; rfl

/-! ## Negations -/

theorem read_neg_sx : val_main_v24 (F := Ideal) X (ix1 b) = -(Ideal.sin (X (ix2 b 2))) := by
  rw [val_main_v24_apply, read_sx]; rfl

theorem read_neg_sy : val_main_v41 (F := Ideal) X (ix1 b) = -(Ideal.sin (X (ix2 b 3))) := by
  rw [val_main_v41_apply, read_sy]; rfl

theorem read_neg_sz : val_main_v58 (F := Ideal) X (ix1 b) = -(Ideal.sin (X (ix2 b 4))) := by
  rw [val_main_v58_apply, read_sz]; rfl

theorem read_neg_tz : val_main_v77 (F := Ideal) X (ix1 b) = -(X (ix2 b 7)) := by
  rw [val_main_v77_apply, read_tz]; rfl

theorem read_neg_tx : val_main_v78 (F := Ideal) X (ix1 b) = -(X (ix2 b 5)) := by
  rw [val_main_v78_apply, read_tx]; rfl

theorem read_neg_ty : val_main_v79 (F := Ideal) X (ix1 b) = -(X (ix2 b 6)) := by
  rw [val_main_v79_apply, read_ty]; rfl

/-! ## The two reciprocals -/

theorem read_k1 : val_main_v99 (F := Ideal) X (ix1 b) = Cert.Rows.recip (X (ix2 b 0)) := by
  rw [val_main_v99_apply, val_main_v98_apply, val_main_v97_apply, val_main_v96_apply, read_f1]; rfl

theorem read_k2 : val_main_v103 (F := Ideal) X (ix1 b) = Cert.Rows.recip (X (ix2 b 1)) := by
  rw [val_main_v103_apply, val_main_v102_apply, val_main_v101_apply, val_main_v100_apply, read_f2]; rfl

end Cert.Rows.Reference

end
-- ==== Proof.RefEntry.lean ====
/-
  One row of the reference's result, entry by entry: row b, column n of the array the reference returns is entry
  (n / 3, n % 3) of the chain of 3×3 products built from row b of its argument.

  The reference lays nine vectors out as a batch of 3×3 matrices by broadcasting each vector to a column, joining three
  columns into a row block, broadcasting each row block to a one-row matrix and joining three of those. Read at
  (b, i, j) such an array is vector (i, j) at b (`mat_apply`). Each of the six matrices is then the 3×3 matrix of its
  scalars at row b, each batched product is the 3×3 product of its factors at row b, and the final reshape reads the
  flat position n at row n / 3, column n % 3.
-/
import proofs.«111784_j11897059410241_2_alg».proof.Proof.Gen.ReferenceIdeal.Read
import proofs.«111784_j11897059410241_2_alg».proof.Proof.Spec
import proofs.«111784_j11897059410241_2_alg».proof.Proof.RefScalars
import Idealize.ShloMosaic.Lib.ValueIdx
import Idealize.ShloMosaic.Lib.Pipeline.Value
import Idealize.ShloMosaic.Lib.ValueLayout

noncomputable section

namespace Cert.Rows.Reference

open Cert.ReferenceIdeal Cert.ReferenceIdeal.Gen Cert.ReferenceIdeal.Read Idealize.ShloMosaic Idealize.ShloMosaic.ValueIdx

/-! ## Nine vectors as a batch of 3×3 matrices -/

/-- Three vectors, each broadcast to a column and joined along the second axis: entry (b, j) is vector j at b. -/
theorem row_apply {α : Type} (hb1 : S4194304.BroadcastsInDim S4194304x1 (![0] : Fin 1 → Fin S4194304x1.rank))
    (hc1 : Shape.Concatenates [S4194304x1, S4194304x1, S4194304x1] S4194304x3 1)
    (a0 a1 a2 : S4194304.Idx → α) (b : Fin 4194304) (j : Fin 3) :
    concatenate S4194304x3 1 [⟨S4194304x1, broadcastInDim S4194304x1 ![0] hb1 a0⟩, ⟨S4194304x1, broadcastInDim S4194304x1 ![0] hb1 a1⟩, ⟨S4194304x1, broadcastInDim S4194304x1 ![0] hb1 a2⟩] hc1 (ix2 b j)
      = (![a0, a1, a2] j) (ix1 b) := by
  show concatenate S4194304x3 1 (List.ofFn fun n : Fin 3 => (⟨S4194304x1, broadcastInDim S4194304x1 ![0] hb1 (![a0, a1, a2] n)⟩ : (s : Shape) × (s.Idx → α))) _ (ix2 b j) = _
  refine (concatenate_ofFn_unit_apply (t := S4194304x3) (s₁ := S4194304x1) (1 : Fin 2) (fun n : Fin 3 => broadcastInDim S4194304x1 ![0] hb1 (![a0, a1, a2] n)) _ rfl rfl (ix2 b j) j rfl (ix2 b 0) (fun c hc => ?_)).trans ?_
  · match c with
    | ⟨0, _⟩ => rfl
    | ⟨1, _⟩ => exact absurd rfl hc
  · exact broadcastInDim_apply _ hb1 _ (ix2 b 0) (ix1 b) (fun a => match a with
      | ⟨0, _⟩ => by show b.val = if (4194304 : Nat) = 1 then 0 else b.val; rw [if_neg (by decide)])

/-- Three rows, each broadcast to a one-row matrix and joined along the second axis: entry (b, i, j) is row i at (b, j). -/
theorem rows_apply {α : Type} (hb3 : S4194304x3.BroadcastsInDim S4194304x1x3 (![0, 2] : Fin 2 → Fin S4194304x1x3.rank))
    (hc3 : Shape.Concatenates [S4194304x1x3, S4194304x1x3, S4194304x1x3] S4194304x3x3 1)
    (r0 r1 r2 : S4194304x3.Idx → α) (b : Fin 4194304) (i j : Fin 3) :
    concatenate S4194304x3x3 1 [⟨S4194304x1x3, broadcastInDim S4194304x1x3 ![0, 2] hb3 r0⟩, ⟨S4194304x1x3, broadcastInDim S4194304x1x3 ![0, 2] hb3 r1⟩, ⟨S4194304x1x3, broadcastInDim S4194304x1x3 ![0, 2] hb3 r2⟩] hc3 (ix3 b i j)
      = (![r0, r1, r2] i) (ix2 b j) := by
  show concatenate S4194304x3x3 1 (List.ofFn fun n : Fin 3 => (⟨S4194304x1x3, broadcastInDim S4194304x1x3 ![0, 2] hb3 (![r0, r1, r2] n)⟩ : (s : Shape) × (s.Idx → α))) _ (ix3 b i j) = _
  refine (concatenate_ofFn_unit_apply (t := S4194304x3x3) (s₁ := S4194304x1x3) (1 : Fin 3) (fun n : Fin 3 => broadcastInDim S4194304x1x3 ![0, 2] hb3 (![r0, r1, r2] n)) _ rfl rfl (ix3 b i j) i rfl (ix3 b 0 j) (fun c hc => ?_)).trans ?_
  · match c with
    | ⟨0, _⟩ => rfl
    | ⟨1, _⟩ => exact absurd rfl hc
    | ⟨2, _⟩ => rfl
  · exact broadcastInDim_apply _ hb3 _ (ix3 b 0 j) (ix2 b j) (fun a => match a with
      | ⟨0, _⟩ => by show b.val = if (4194304 : Nat) = 1 then 0 else b.val; rw [if_neg (by decide)]
      | ⟨1, _⟩ => by show j.val = if (3 : Nat) = 1 then 0 else j.val; rw [if_neg (by decide)])

/-- Nine vectors laid out as a batch of 3×3 matrices: entry (b, i, j) is vector (i, j) at b. -/
theorem mat_apply {α : Type} (hb1 : S4194304.BroadcastsInDim S4194304x1 (![0] : Fin 1 → Fin S4194304x1.rank))
    (hc1 : Shape.Concatenates [S4194304x1, S4194304x1, S4194304x1] S4194304x3 1)
    (hb3 : S4194304x3.BroadcastsInDim S4194304x1x3 (![0, 2] : Fin 2 → Fin S4194304x1x3.rank))
    (hc3 : Shape.Concatenates [S4194304x1x3, S4194304x1x3, S4194304x1x3] S4194304x3x3 1)
    (a00 a01 a02 a10 a11 a12 a20 a21 a22 : S4194304.Idx → α) (b : Fin 4194304) (i j : Fin 3) :
    concatenate S4194304x3x3 1
        [⟨S4194304x1x3, broadcastInDim S4194304x1x3 ![0, 2] hb3 (concatenate S4194304x3 1 [⟨S4194304x1, broadcastInDim S4194304x1 ![0] hb1 a00⟩, ⟨S4194304x1, broadcastInDim S4194304x1 ![0] hb1 a01⟩, ⟨S4194304x1, broadcastInDim S4194304x1 ![0] hb1 a02⟩] hc1)⟩,
         ⟨S4194304x1x3, broadcastInDim S4194304x1x3 ![0, 2] hb3 (concatenate S4194304x3 1 [⟨S4194304x1, broadcastInDim S4194304x1 ![0] hb1 a10⟩, ⟨S4194304x1, broadcastInDim S4194304x1 ![0] hb1 a11⟩, ⟨S4194304x1, broadcastInDim S4194304x1 ![0] hb1 a12⟩] hc1)⟩,
         ⟨S4194304x1x3, broadcastInDim S4194304x1x3 ![0, 2] hb3 (concatenate S4194304x3 1 [⟨S4194304x1, broadcastInDim S4194304x1 ![0] hb1 a20⟩, ⟨S4194304x1, broadcastInDim S4194304x1 ![0] hb1 a21⟩, ⟨S4194304x1, broadcastInDim S4194304x1 ![0] hb1 a22⟩] hc1)⟩] hc3 (ix3 b i j)
      = (![![a00, a01, a02], ![a10, a11, a12], ![a20, a21, a22]] i j) (ix1 b) := by
  refine (rows_apply hb3 hc3 _ _ _ b i j).trans ?_
  match i with
  | ⟨0, _⟩ => exact row_apply hb1 hc1 a00 a01 a02 b j
  | ⟨1, _⟩ => exact row_apply hb1 hc1 a10 a11 a12 b j
  | ⟨2, _⟩ => exact row_apply hb1 hc1 a20 a21 a22 b j

/-- Reading a 3×3 table of vectors at one point is the 3×3 matrix of the vectors' values there. -/
theorem mat_eval (a00 a01 a02 a10 a11 a12 a20 a21 a22 : S4194304.Idx → EReal) (p : S4194304.Idx) (i j : Fin 3) :
    (![![a00, a01, a02], ![a10, a11, a12], ![a20, a21, a22]] i j) p
      = Cert.Rows.mat (a00 p) (a01 p) (a02 p) (a10 p) (a11 p) (a12 p) (a20 p) (a21 p) (a22 p) i j := by
  match i, j with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

/-! ## The six matrices at row b -/

theorem Rx_read (X : (⟨S4194304x8, .f32⟩ : BufTy).Contents (Elt Ideal)) (b : Fin 4194304) (i j : Fin 3) :
    val_main_v40 (F := Ideal) X (ix3 b i j)
      = (![![val_main_v17 (F := Ideal), val_main_v16 (F := Ideal), val_main_v16 (F := Ideal)],
           ![val_main_v16 (F := Ideal), val_main_v18 (F := Ideal) X, val_main_v24 (F := Ideal) X],
           ![val_main_v16 (F := Ideal), val_main_v19 (F := Ideal) X, val_main_v18 (F := Ideal) X]] i j) (ix1 b) :=
  mat_apply _ _ _ _ _ _ _ _ _ _ _ _ _ b i j

theorem Rx_entry (X : (⟨S4194304x8, .f32⟩ : BufTy).Contents (Elt Ideal)) (b : Fin 4194304) (i j : Fin 3) :
    val_main_v40 (F := Ideal) X (ix3 b i j)
      = Cert.Rows.mat Cert.Rows.oneW Cert.Rows.zeroW Cert.Rows.zeroW Cert.Rows.zeroW (Ideal.cos (X (ix2 b 2))) (-Ideal.sin (X (ix2 b 2))) Cert.Rows.zeroW (Ideal.sin (X (ix2 b 2))) (Ideal.cos (X (ix2 b 2))) i j := by
  rw [Rx_read, mat_eval, read_one, read_zero, read_cx, read_sx, read_neg_sx]

theorem Ry_read (X : (⟨S4194304x8, .f32⟩ : BufTy).Contents (Elt Ideal)) (b : Fin 4194304) (i j : Fin 3) :
    val_main_v57 (F := Ideal) X (ix3 b i j)
      = (![![val_main_v20 (F := Ideal) X, val_main_v16 (F := Ideal), val_main_v41 (F := Ideal) X],
           ![val_main_v16 (F := Ideal), val_main_v17 (F := Ideal), val_main_v16 (F := Ideal)],
           ![val_main_v21 (F := Ideal) X, val_main_v16 (F := Ideal), val_main_v20 (F := Ideal) X]] i j) (ix1 b) :=
  mat_apply _ _ _ _ _ _ _ _ _ _ _ _ _ b i j

theorem Ry_entry (X : (⟨S4194304x8, .f32⟩ : BufTy).Contents (Elt Ideal)) (b : Fin 4194304) (i j : Fin 3) :
    val_main_v57 (F := Ideal) X (ix3 b i j)
      = Cert.Rows.mat (Ideal.cos (X (ix2 b 3))) Cert.Rows.zeroW (-Ideal.sin (X (ix2 b 3))) Cert.Rows.zeroW Cert.Rows.oneW Cert.Rows.zeroW (Ideal.sin (X (ix2 b 3))) Cert.Rows.zeroW (Ideal.cos (X (ix2 b 3))) i j := by
  rw [Ry_read, mat_eval, read_one, read_zero, read_cy, read_sy, read_neg_sy]

theorem Rz_read (X : (⟨S4194304x8, .f32⟩ : BufTy).Contents (Elt Ideal)) (b : Fin 4194304) (i j : Fin 3) :
    val_main_v74 (F := Ideal) X (ix3 b i j)
      = (![![val_main_v22 (F := Ideal) X, val_main_v58 (F := Ideal) X, val_main_v16 (F := Ideal)],
           ![val_main_v23 (F := Ideal) X, val_main_v22 (F := Ideal) X, val_main_v16 (F := Ideal)],
           ![val_main_v16 (F := Ideal), val_main_v16 (F := Ideal), val_main_v17 (F := Ideal)]] i j) (ix1 b) :=
  mat_apply _ _ _ _ _ _ _ _ _ _ _ _ _ b i j

theorem Rz_entry (X : (⟨S4194304x8, .f32⟩ : BufTy).Contents (Elt Ideal)) (b : Fin 4194304) (i j : Fin 3) :
    val_main_v74 (F := Ideal) X (ix3 b i j)
      = Cert.Rows.mat (Ideal.cos (X (ix2 b 4))) (-Ideal.sin (X (ix2 b 4))) Cert.Rows.zeroW (Ideal.sin (X (ix2 b 4))) (Ideal.cos (X (ix2 b 4))) Cert.Rows.zeroW Cert.Rows.zeroW Cert.Rows.zeroW Cert.Rows.oneW i j := by
  rw [Rz_read, mat_eval, read_one, read_zero, read_cz, read_sz, read_neg_sz]

theorem T_read (X : (⟨S4194304x8, .f32⟩ : BufTy).Contents (Elt Ideal)) (b : Fin 4194304) (i j : Fin 3) :
    val_main_v95 (F := Ideal) X (ix3 b i j)
      = (![![val_main_v16 (F := Ideal), val_main_v77 (F := Ideal) X, val_main_v13 (F := Ideal) X],
           ![val_main_v15 (F := Ideal) X, val_main_v16 (F := Ideal), val_main_v78 (F := Ideal) X],
           ![val_main_v79 (F := Ideal) X, val_main_v11 (F := Ideal) X, val_main_v16 (F := Ideal)]] i j) (ix1 b) :=
  mat_apply _ _ _ _ _ _ _ _ _ _ _ _ _ b i j

theorem T_entry (X : (⟨S4194304x8, .f32⟩ : BufTy).Contents (Elt Ideal)) (b : Fin 4194304) (i j : Fin 3) :
    val_main_v95 (F := Ideal) X (ix3 b i j)
      = Cert.Rows.mat Cert.Rows.zeroW (-(X (ix2 b 7))) (X (ix2 b 6)) (X (ix2 b 7)) Cert.Rows.zeroW (-(X (ix2 b 5))) (-(X (ix2 b 6))) (X (ix2 b 5)) Cert.Rows.zeroW i j := by
  rw [T_read, mat_eval, read_zero, read_neg_tz, read_neg_tx, read_neg_ty, read_tx, read_ty, read_tz]

theorem K1_read (X : (⟨S4194304x8, .f32⟩ : BufTy).Contents (Elt Ideal)) (b : Fin 4194304) (i j : Fin 3) :
    val_main_v119 (F := Ideal) X (ix3 b i j)
      = (![![val_main_v99 (F := Ideal) X, val_main_v16 (F := Ideal), val_main_v16 (F := Ideal)],
           ![val_main_v16 (F := Ideal), val_main_v99 (F := Ideal) X, val_main_v16 (F := Ideal)],
           ![val_main_v16 (F := Ideal), val_main_v16 (F := Ideal), val_main_v17 (F := Ideal)]] i j) (ix1 b) :=
  mat_apply _ _ _ _ _ _ _ _ _ _ _ _ _ b i j

theorem K1_entry (X : (⟨S4194304x8, .f32⟩ : BufTy).Contents (Elt Ideal)) (b : Fin 4194304) (i j : Fin 3) :
    val_main_v119 (F := Ideal) X (ix3 b i j)
      = Cert.Rows.mat (Cert.Rows.recip (X (ix2 b 0))) Cert.Rows.zeroW Cert.Rows.zeroW Cert.Rows.zeroW (Cert.Rows.recip (X (ix2 b 0))) Cert.Rows.zeroW Cert.Rows.zeroW Cert.Rows.zeroW Cert.Rows.oneW i j := by
  rw [K1_read, mat_eval, read_one, read_zero, read_k1]

theorem K2_read (X : (⟨S4194304x8, .f32⟩ : BufTy).Contents (Elt Ideal)) (b : Fin 4194304) (i j : Fin 3) :
    val_main_v135 (F := Ideal) X (ix3 b i j)
      = (![![val_main_v103 (F := Ideal) X, val_main_v16 (F := Ideal), val_main_v16 (F := Ideal)],
           ![val_main_v16 (F := Ideal), val_main_v103 (F := Ideal) X, val_main_v16 (F := Ideal)],
           ![val_main_v16 (F := Ideal), val_main_v16 (F := Ideal), val_main_v17 (F := Ideal)]] i j) (ix1 b) :=
  mat_apply _ _ _ _ _ _ _ _ _ _ _ _ _ b i j

theorem K2_entry (X : (⟨S4194304x8, .f32⟩ : BufTy).Contents (Elt Ideal)) (b : Fin 4194304) (i j : Fin 3) :
    val_main_v135 (F := Ideal) X (ix3 b i j)
      = Cert.Rows.mat (Cert.Rows.recip (X (ix2 b 1))) Cert.Rows.zeroW Cert.Rows.zeroW Cert.Rows.zeroW (Cert.Rows.recip (X (ix2 b 1))) Cert.Rows.zeroW Cert.Rows.zeroW Cert.Rows.zeroW Cert.Rows.oneW i j := by
  rw [K2_read, mat_eval, read_one, read_zero, read_k2]

/-! ## The five products at row b -/

theorem P75_entry (X : (⟨S4194304x8, .f32⟩ : BufTy).Contents (Elt Ideal)) (b : Fin 4194304) (i j : Fin 3) :
    val_main_v75 (F := Ideal) X (ix3 b i j)
      = Cert.Rows.mm (Cert.Rows.mat (Ideal.cos (X (ix2 b 3))) Cert.Rows.zeroW (-Ideal.sin (X (ix2 b 3))) Cert.Rows.zeroW Cert.Rows.oneW Cert.Rows.zeroW (Ideal.sin (X (ix2 b 3))) Cert.Rows.zeroW (Ideal.cos (X (ix2 b 3))))
          (Cert.Rows.mat (Ideal.cos (X (ix2 b 4))) (-Ideal.sin (X (ix2 b 4))) Cert.Rows.zeroW (Ideal.sin (X (ix2 b 4))) (Ideal.cos (X (ix2 b 4))) Cert.Rows.zeroW Cert.Rows.zeroW Cert.Rows.zeroW Cert.Rows.oneW) i j := by
  rw [val_main_v75_apply]
  have hl : ∀ k : Fin 3, lidx_main_v75 (ix3 b i j) k = ix3 b i k := fun k => funext fun a => match a with
    | ⟨0, _⟩ => rfl
    | ⟨1, _⟩ => rfl
    | ⟨2, _⟩ => rfl
  have hr : ∀ k : Fin 3, ridx_main_v75 (ix3 b i j) k = ix3 b k j := fun k => funext fun a => match a with
    | ⟨0, _⟩ => rfl
    | ⟨1, _⟩ => rfl
    | ⟨2, _⟩ => rfl
  simp only [hl, hr, Ry_entry, Rz_entry]
  rfl

theorem P76_entry (X : (⟨S4194304x8, .f32⟩ : BufTy).Contents (Elt Ideal)) (b : Fin 4194304) (i j : Fin 3) :
    val_main_v76 (F := Ideal) X (ix3 b i j)
      = Cert.Rows.mm (Cert.Rows.mat Cert.Rows.oneW Cert.Rows.zeroW Cert.Rows.zeroW Cert.Rows.zeroW (Ideal.cos (X (ix2 b 2))) (-Ideal.sin (X (ix2 b 2))) Cert.Rows.zeroW (Ideal.sin (X (ix2 b 2))) (Ideal.cos (X (ix2 b 2))))
          (Cert.Rows.mm (Cert.Rows.mat (Ideal.cos (X (ix2 b 3))) Cert.Rows.zeroW (-Ideal.sin (X (ix2 b 3))) Cert.Rows.zeroW Cert.Rows.oneW Cert.Rows.zeroW (Ideal.sin (X (ix2 b 3))) Cert.Rows.zeroW (Ideal.cos (X (ix2 b 3)))) (Cert.Rows.mat (Ideal.cos (X (ix2 b 4))) (-Ideal.sin (X (ix2 b 4))) Cert.Rows.zeroW (Ideal.sin (X (ix2 b 4))) (Ideal.cos (X (ix2 b 4))) Cert.Rows.zeroW Cert.Rows.zeroW Cert.Rows.zeroW Cert.Rows.oneW)) i j := by
  rw [val_main_v76_apply]
  have hl : ∀ k : Fin 3, lidx_main_v76 (ix3 b i j) k = ix3 b i k := fun k => funext fun a => match a with
    | ⟨0, _⟩ => rfl
    | ⟨1, _⟩ => rfl
    | ⟨2, _⟩ => rfl
  have hr : ∀ k : Fin 3, ridx_main_v76 (ix3 b i j) k = ix3 b k j := fun k => funext fun a => match a with
    | ⟨0, _⟩ => rfl
    | ⟨1, _⟩ => rfl
    | ⟨2, _⟩ => rfl
  simp only [hl, hr, Rx_entry, P75_entry]
  rfl

theorem P136_entry (X : (⟨S4194304x8, .f32⟩ : BufTy).Contents (Elt Ideal)) (b : Fin 4194304) (i j : Fin 3) :
    val_main_v136 (F := Ideal) X (ix3 b i j)
      = Cert.Rows.mm (Cert.Rows.mm (Cert.Rows.mat Cert.Rows.oneW Cert.Rows.zeroW Cert.Rows.zeroW Cert.Rows.zeroW (Ideal.cos (X (ix2 b 2))) (-Ideal.sin (X (ix2 b 2))) Cert.Rows.zeroW (Ideal.sin (X (ix2 b 2))) (Ideal.cos (X (ix2 b 2)))) (Cert.Rows.mm (Cert.Rows.mat (Ideal.cos (X (ix2 b 3))) Cert.Rows.zeroW (-Ideal.sin (X (ix2 b 3))) Cert.Rows.zeroW Cert.Rows.oneW Cert.Rows.zeroW (Ideal.sin (X (ix2 b 3))) Cert.Rows.zeroW (Ideal.cos (X (ix2 b 3)))) (Cert.Rows.mat (Ideal.cos (X (ix2 b 4))) (-Ideal.sin (X (ix2 b 4))) Cert.Rows.zeroW (Ideal.sin (X (ix2 b 4))) (Ideal.cos (X (ix2 b 4))) Cert.Rows.zeroW Cert.Rows.zeroW Cert.Rows.zeroW Cert.Rows.oneW)))
          (Cert.Rows.mat (Cert.Rows.recip (X (ix2 b 0))) Cert.Rows.zeroW Cert.Rows.zeroW Cert.Rows.zeroW (Cert.Rows.recip (X (ix2 b 0))) Cert.Rows.zeroW Cert.Rows.zeroW Cert.Rows.zeroW Cert.Rows.oneW) i j := by
  rw [val_main_v136_apply]
  have hl : ∀ k : Fin 3, lidx_main_v136 (ix3 b i j) k = ix3 b i k := fun k => funext fun a => match a with
    | ⟨0, _⟩ => rfl
    | ⟨1, _⟩ => rfl
    | ⟨2, _⟩ => rfl
  have hr : ∀ k : Fin 3, ridx_main_v136 (ix3 b i j) k = ix3 b k j := fun k => funext fun a => match a with
    | ⟨0, _⟩ => rfl
    | ⟨1, _⟩ => rfl
    | ⟨2, _⟩ => rfl
  simp only [hl, hr, P76_entry, K1_entry]
  rfl

theorem P137_entry (X : (⟨S4194304x8, .f32⟩ : BufTy).Contents (Elt Ideal)) (b : Fin 4194304) (i j : Fin 3) :
    val_main_v137 (F := Ideal) X (ix3 b i j)
      = Cert.Rows.mm (Cert.Rows.mat Cert.Rows.zeroW (-(X (ix2 b 7))) (X (ix2 b 6)) (X (ix2 b 7)) Cert.Rows.zeroW (-(X (ix2 b 5))) (-(X (ix2 b 6))) (X (ix2 b 5)) Cert.Rows.zeroW)
          (Cert.Rows.mm (Cert.Rows.mm (Cert.Rows.mat Cert.Rows.oneW Cert.Rows.zeroW Cert.Rows.zeroW Cert.Rows.zeroW (Ideal.cos (X (ix2 b 2))) (-Ideal.sin (X (ix2 b 2))) Cert.Rows.zeroW (Ideal.sin (X (ix2 b 2))) (Ideal.cos (X (ix2 b 2)))) (Cert.Rows.mm (Cert.Rows.mat (Ideal.cos (X (ix2 b 3))) Cert.Rows.zeroW (-Ideal.sin (X (ix2 b 3))) Cert.Rows.zeroW Cert.Rows.oneW Cert.Rows.zeroW (Ideal.sin (X (ix2 b 3))) Cert.Rows.zeroW (Ideal.cos (X (ix2 b 3)))) (Cert.Rows.mat (Ideal.cos (X (ix2 b 4))) (-Ideal.sin (X (ix2 b 4))) Cert.Rows.zeroW (Ideal.sin (X (ix2 b 4))) (Ideal.cos (X (ix2 b 4))) Cert.Rows.zeroW Cert.Rows.zeroW Cert.Rows.zeroW Cert.Rows.oneW))) (Cert.Rows.mat (Cert.Rows.recip (X (ix2 b 0))) Cert.Rows.zeroW Cert.Rows.zeroW Cert.Rows.zeroW (Cert.Rows.recip (X (ix2 b 0))) Cert.Rows.zeroW Cert.Rows.zeroW Cert.Rows.zeroW Cert.Rows.oneW)) i j := by
  rw [val_main_v137_apply]
  have hl : ∀ k : Fin 3, lidx_main_v137 (ix3 b i j) k = ix3 b i k := fun k => funext fun a => match a with
    | ⟨0, _⟩ => rfl
    | ⟨1, _⟩ => rfl
    | ⟨2, _⟩ => rfl
  have hr : ∀ k : Fin 3, ridx_main_v137 (ix3 b i j) k = ix3 b k j := fun k => funext fun a => match a with
    | ⟨0, _⟩ => rfl
    | ⟨1, _⟩ => rfl
    | ⟨2, _⟩ => rfl
  simp only [hl, hr, T_entry, P136_entry]
  rfl

theorem P138_entry (X : (⟨S4194304x8, .f32⟩ : BufTy).Contents (Elt Ideal)) (b : Fin 4194304) (i j : Fin 3) :
    val_main_v138 (F := Ideal) X (ix3 b i j)
      = Cert.Rows.mm (Cert.Rows.mat (Cert.Rows.recip (X (ix2 b 1))) Cert.Rows.zeroW Cert.Rows.zeroW Cert.Rows.zeroW (Cert.Rows.recip (X (ix2 b 1))) Cert.Rows.zeroW Cert.Rows.zeroW Cert.Rows.zeroW Cert.Rows.oneW)
          (Cert.Rows.mm (Cert.Rows.mat Cert.Rows.zeroW (-(X (ix2 b 7))) (X (ix2 b 6)) (X (ix2 b 7)) Cert.Rows.zeroW (-(X (ix2 b 5))) (-(X (ix2 b 6))) (X (ix2 b 5)) Cert.Rows.zeroW) (Cert.Rows.mm (Cert.Rows.mm (Cert.Rows.mat Cert.Rows.oneW Cert.Rows.zeroW Cert.Rows.zeroW Cert.Rows.zeroW (Ideal.cos (X (ix2 b 2))) (-Ideal.sin (X (ix2 b 2))) Cert.Rows.zeroW (Ideal.sin (X (ix2 b 2))) (Ideal.cos (X (ix2 b 2)))) (Cert.Rows.mm (Cert.Rows.mat (Ideal.cos (X (ix2 b 3))) Cert.Rows.zeroW (-Ideal.sin (X (ix2 b 3))) Cert.Rows.zeroW Cert.Rows.oneW Cert.Rows.zeroW (Ideal.sin (X (ix2 b 3))) Cert.Rows.zeroW (Ideal.cos (X (ix2 b 3)))) (Cert.Rows.mat (Ideal.cos (X (ix2 b 4))) (-Ideal.sin (X (ix2 b 4))) Cert.Rows.zeroW (Ideal.sin (X (ix2 b 4))) (Ideal.cos (X (ix2 b 4))) Cert.Rows.zeroW Cert.Rows.zeroW Cert.Rows.zeroW Cert.Rows.oneW))) (Cert.Rows.mat (Cert.Rows.recip (X (ix2 b 0))) Cert.Rows.zeroW Cert.Rows.zeroW Cert.Rows.zeroW (Cert.Rows.recip (X (ix2 b 0))) Cert.Rows.zeroW Cert.Rows.zeroW Cert.Rows.zeroW Cert.Rows.oneW))) i j := by
  rw [val_main_v138_apply]
  have hl : ∀ k : Fin 3, lidx_main_v138 (ix3 b i j) k = ix3 b i k := fun k => funext fun a => match a with
    | ⟨0, _⟩ => rfl
    | ⟨1, _⟩ => rfl
    | ⟨2, _⟩ => rfl
  have hr : ∀ k : Fin 3, ridx_main_v138 (ix3 b i j) k = ix3 b k j := fun k => funext fun a => match a with
    | ⟨0, _⟩ => rfl
    | ⟨1, _⟩ => rfl
    | ⟨2, _⟩ => rfl
  simp only [hl, hr, K2_entry, P137_entry]
  rfl

/-- The flat position n of the reshaped result sits at row n / 3, column n % 3 of the 3×3 matrix of row b. -/
theorem idx139 (b : Fin 4194304) (n : Fin 9) :
    idx_main_v139 (ix2 b n) = ix3 b (Cert.Rows.rowOf n) (Cert.Rows.colOf n) := by
  have hb := b.isLt
  have hn := n.isLt
  funext a
  match a with
  | ⟨0, _⟩ => exact Fin.ext (by show (b.val * 9 + n.val) / 9 = b.val; omega)
  | ⟨1, _⟩ => exact Fin.ext (by show (b.val * 9 + n.val) / 3 % 3 = n.val / 3; omega)
  | ⟨2, _⟩ => exact Fin.ext (by show (b.val * 9 + n.val) % 3 = n.val % 3; omega)

theorem ref_entry (X : (⟨S4194304x8, .f32⟩ : BufTy).Contents (Elt Ideal)) (b : Fin 4194304) (n : Fin 9) :
    val_main_v139 (F := Ideal) X (ix2 b n)
      = Cert.Rows.product (fun p => X (ix2 b p)) (Cert.Rows.rowOf n) (Cert.Rows.colOf n) := by
  rw [val_main_v139_apply, idx139, P138_entry]
  rfl

end Cert.Rows.Reference

end
-- ==== Proof.RefValue.lean ====
/-
  The reference's result array, whole: row b of the array the reference returns is the nine entries of the chain of 3×3
  products built from row b of its argument (the entry lemma), and the chain collapses, entry by entry, to the closed form
  (`Cert.Rows.product_eq_closed`): so the reference returns `Cert.Rows.G` of its argument.
-/
import proofs.«111784_j11897059410241_2_alg».proof.Proof.Gen.ReferenceIdeal.Read
import proofs.«111784_j11897059410241_2_alg».proof.Proof.Spec
import proofs.«111784_j11897059410241_2_alg».proof.Proof.RefEntry
import Idealize.ShloMosaic.Lib.ValueIdx

noncomputable section

namespace Cert.Rows.Reference

open Cert.ReferenceIdeal Cert.ReferenceIdeal.Gen Cert.ReferenceIdeal.Read Idealize.ShloMosaic Idealize.ShloMosaic.ValueIdx

theorem result_eq (X : (⟨S4194304x8, .f32⟩ : BufTy).Contents (Elt Ideal)) :
    val_main_v139 (F := Ideal) X = Cert.Rows.G X := by
  funext i
  obtain ⟨b, n, rfl⟩ : ∃ (b : Fin 4194304) (n : Fin 9), i = ix2 b n := ⟨i 0, i 1, eq_ix2 i⟩
  rw [ref_entry, Cert.Rows.product_eq_closed]
  rfl

end Cert.Rows.Reference

end
-- ==== Proof.lean ====
/-
  Every row of the result is the 3×3 matrix F = diag(k₂, k₂, 1) · (T · (R · diag(k₁, k₁, 1))) of that row's eight
  parameters, flattened to nine entries. The kernel computes the nine entries from closed formulas, 8192 rows per grid
  point; the reference builds the six matrices entry by entry and multiplies them. Both end with the same array
  `Cert.Rows.G` of the argument: the kernel block by block (Proof/KernelEntry.lean, Proof/KernelValue.lean), the reference
  through its products read at an index (Proof/RefEntry.lean, Proof/RefValue.lean), the two spellings of an entry joined by
  laws of the extended reals that hold with no entry assumed finite (Proof/Spec.lean). The precondition is not used by the
  value claim. The three frames are the generated ones; the idealization rewrote nothing, so `preserves` is trivial.
-/
import proofs.«111784_j11897059410241_2_alg».proof.Defs
import proofs.«111784_j11897059410241_2_alg».proof.Proof.Gen.Kernel
import proofs.«111784_j11897059410241_2_alg».proof.Proof.Gen.Kernel.Skeleton
import proofs.«111784_j11897059410241_2_alg».proof.Proof.Gen.Kernel.Launch
import proofs.«111784_j11897059410241_2_alg».proof.Proof.Gen.Kernel.Points
import proofs.«111784_j11897059410241_2_alg».proof.Proof.Gen.Kernel.Frame
import proofs.«111784_j11897059410241_2_alg».proof.Proof.Gen.KernelIdeal
import proofs.«111784_j11897059410241_2_alg».proof.Proof.Gen.KernelIdeal.Skeleton
import proofs.«111784_j11897059410241_2_alg».proof.Proof.Gen.KernelIdeal.Launch
import proofs.«111784_j11897059410241_2_alg».proof.Proof.Gen.KernelIdeal.Points
import proofs.«111784_j11897059410241_2_alg».proof.Proof.Gen.KernelIdeal.Frame
import proofs.«111784_j11897059410241_2_alg».proof.Proof.Gen.ReferenceIdeal
import proofs.«111784_j11897059410241_2_alg».proof.Proof.Gen.Pre_finite_inputs
import proofs.«111784_j11897059410241_2_alg».proof.Proof.Gen.KernelIdeal.Value
import proofs.«111784_j11897059410241_2_alg».proof.Proof.Gen.ReferenceIdeal.Run
import proofs.«111784_j11897059410241_2_alg».proof.Proof.Gen.ReferenceIdeal.Read
import proofs.«111784_j11897059410241_2_alg».proof.Proof.KernelValue
import proofs.«111784_j11897059410241_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with `G` of the argument array; the two arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Rows.G (m ((c.tc : Thread Cert.KernelIdeal.nD Cert.KernelIdeal.τ).loc Cert.KernelIdeal.main_arg0)),
    Cert.Rows.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v139_eq, Cert.Rows.Reference.result_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
